-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x5x1024x1024 : Shape := ⟨4, ![32, 5, 1024, 1024]⟩
abbrev S256x256 : Shape := ⟨2, ![256, 256]⟩
abbrev S5x256x256 : Shape := ⟨3, ![5, 256, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x5x1024x1024 : S_.BroadcastsInDim S32x5x1024x1024 (![] : Fin 0 → Fin S32x5x1024x1024.rank)
  reducesTo_S32x5x1024x1024_S_d0_1_2_3 : S32x5x1024x1024.ReducesTo [0, 1, 2, 3] S_
  bcast_S_S256x256 : S_.BroadcastsInDim S256x256 (![] : Fin 0 → Fin S256x256.rank)
  reducesTo_S256x256_S_d0_1 : S256x256.ReducesTo [0, 1] S_
  bcast_S_S5x256x256 : S_.BroadcastsInDim S5x256x256 (![] : Fin 0 → Fin S5x256x256.rank)
  reducesTo_S5x256x256_S_d0_1_2 : S5x256x256.ReducesTo [0, 1, 2] S_

variable [Facts]

def fn_part1 {F : FTy → Type} [FloatOps F] (main_v13 : IVec S_ 1) (main_v16 : IVec S5x256x256 1) : IVec S_ 1 :=
  let main_c_5 : IVec S_ 1 := constantI S_ 1 1#1
  let main_v17 : IVec S_ 1 := (fun x v => Host.reduce IntOp.andi x v reducesTo_S5x256x256_S_d0_1_2 h_S_) main_v16 main_c_5
  let main_v18 : IVec S_ 1 := andi main_v13 main_v17
  main_v18

def fn {F : FTy → Type} [FloatOps F] (main_arg0 : FVec F S32x1024x256 .f32) (main_arg1 : FVec F S32x5x1024x1024 .f32) (main_arg2 : FVec F S256x256 .f32) (main_arg3 : FVec F S5x256x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x5x1024x1024 .f32 := Host.absf main_arg1
  let main_cst_0 : FVec F S_ .f32 := constant S_ .f32 0x7F800000#32
  let main_v5 : FVec F S32x5x1024x1024 .f32 := broadcastInDim S32x5x1024x1024 ![] bcast_S_S32x5x1024x1024 main_cst_0
  let main_v6 : IVec S32x5x1024x1024 1 := cmpf .olt main_v4 main_v5
  let main_c_1 : IVec S_ 1 := constantI S_ 1 1#1
  let main_v7 : IVec S_ 1 := (fun x v => Host.reduce IntOp.andi x v reducesTo_S32x5x1024x1024_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S5x256x256 .f32 := Host.absf main_arg3
  let main_cst_4 : FVec F S_ .f32 := constant S_ .f32 0x7F800000#32
  let main_v15 : FVec F S5x256x256 .f32 := broadcastInDim S5x256x256 ![] bcast_S_S5x256x256 main_cst_4
  let main_v16 : IVec S5x256x256 1 := cmpf .olt main_v14 main_v15
  fn_part1 (F := F) main_v13 main_v16
-- ==== Kernel.lean ====
abbrev S32x1024x256 : Shape := ⟨3, ![32, 1024, 256]⟩
abbrev S32x5x1024x1024 : Shape := ⟨4, ![32, 5, 1024, 1024]⟩
abbrev S256x256 : Shape := ⟨2, ![256, 256]⟩
abbrev S5x256x256 : Shape := ⟨3, ![5, 256, 256]⟩
abbrev S1x1024x256 : Shape := ⟨3, ![1, 1024, 256]⟩
abbrev S1x1x1024x1024 : Shape := ⟨4, ![1, 1, 1024, 1024]⟩
abbrev S1x256x256 : Shape := ⟨3, ![1, 256, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x1024x256, .f32⟩
  | .hbm, ⟨1, _⟩ => ⟨S32x5x1024x1024, .f32⟩
  | .hbm, ⟨2, _⟩ => ⟨S256x256, .f32⟩
  | .hbm, ⟨3, _⟩ => ⟨S5x256x256, .f32⟩
  | .hbm, ⟨4, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S256x256, .f32⟩
  | .local _ .vmem, ⟨5, _⟩ => ⟨S1x256x256, .f32⟩
  | .local _ .vmem, ⟨6, _⟩ => ⟨S1x256x256, .f32⟩
  | .local _ .vmem, ⟨7, _⟩ => ⟨S1x1024x256, .f32⟩
  | .local _ .vmem, ⟨8, _⟩ => ⟨S1x1024x256, .f32⟩
  | .local _ .vmem, ⟨9, _⟩ => ⟨S1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v26 : BitVec 1 := Scalar.cmpi .eq arg1 c4_i32
  let v27 : BitVec 32 := Scalar.extui v26
  let c0_i32_17 : BitVec 32 := 0#32
  let v28 : BitVec 1 := Scalar.cmpi .ne v27 c0_i32_17
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x5x1024x1024.size a
  hwx0_1 : ∀ i : grid0.Coords, EltTy.bits .f32 = 32 ∨ (Rect.block (s := S32x5x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S5x256x256.size a
  hwx0_3 : ∀ i : grid0.Coords, EltTy.bits .f32 = 32 ∨ (Rect.block (s := S5x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x256.size a
  hwx0_4 : ∀ i : grid0.Coords, EltTy.bits .f32 = 32 ∨ (Rect.block (s := S32x1024x256) S1x1024x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x1024x256 : Shape := ⟨3, ![32, 1024, 256]⟩
abbrev S32x5x1024x1024 : Shape := ⟨4, ![32, 5, 1024, 1024]⟩
abbrev S256x256 : Shape := ⟨2, ![256, 256]⟩
abbrev S5x256x256 : Shape := ⟨3, ![5, 256, 256]⟩
abbrev S5x256x32x1024 : Shape := ⟨4, ![5, 256, 32, 1024]⟩
abbrev S32x5x1024x256 : Shape := ⟨4, ![32, 5, 1024, 256]⟩
abbrev S_ : Shape := ⟨0, ![]⟩
abbrev S32x5x1024 : Shape := ⟨3, ![32, 5, 1024]⟩
abbrev S32x5x1024x1 : Shape := ⟨4, ![32, 5, 1024, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x5x1024x1024, .f32⟩
  | .hbm, ⟨2, _⟩ => ⟨S256x256, .f32⟩
  | .hbm, ⟨3, _⟩ => ⟨S5x256x256, .f32⟩
  | .hbm, ⟨4, _⟩ => ⟨S32x1024x256, .f32⟩
  | .hbm, ⟨5, _⟩ => ⟨S5x256x32x1024, .f32⟩
  | .hbm, ⟨6, _⟩ => ⟨S32x5x1024x256, .f32⟩
  | .hbm, ⟨7, _⟩ => ⟨S_, .f32⟩
  | .hbm, ⟨8, _⟩ => ⟨S32x5x1024, .f32⟩
  | .hbm, ⟨9, _⟩ => ⟨S32x5x1024x1, .f32⟩
  | .hbm, ⟨10, _⟩ => ⟨S_, .f32⟩
  | .hbm, ⟨11, _⟩ => ⟨S32x5x1024x1, .f32⟩
  | .hbm, ⟨12, _⟩ => ⟨S32x5x1024x1, .i1⟩
  | .hbm, ⟨13, _⟩ => ⟨S_, .f32⟩
  | .hbm, ⟨14, _⟩ => ⟨S32x5x1024x1, .f32⟩
  | .hbm, ⟨15, _⟩ => ⟨S32x5x1024x1, .f32⟩
  | .hbm, ⟨16, _⟩ => ⟨S32x5x1024x256, .f32⟩
  | .hbm, ⟨17, _⟩ => ⟨S32x5x1024x256, .f32⟩
  | .hbm, ⟨18, _⟩ => ⟨S_, .f32⟩
  | .hbm, ⟨19, _⟩ => ⟨S32x1024x256, .f32⟩
  | .hbm, ⟨20, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S5x256x32x1024_S32x5x1024x256_2_0_3_1 : S5x256x32x1024.Transposes [2, 0, 3, 1] S32x5x1024x256
  reducesTo_S32x5x1024x1024_S32x5x1024_d3 : S32x5x1024x1024.ReducesTo [3] S32x5x1024
  h_S_ : 0 < S_.numel
  bcast_S32x5x1024_S32x5x1024x1_0_1_2 : S32x5x1024.BroadcastsInDim S32x5x1024x1 (![0, 1, 2] : Fin 3 → Fin S32x5x1024x1.rank)
  bcast_S_S32x5x1024x1 : S_.BroadcastsInDim S32x5x1024x1 (![] : Fin 0 → Fin S32x5x1024x1.rank)
  bcast_S32x5x1024x1_S32x5x1024x256_0_1_2_3 : S32x5x1024x1.BroadcastsInDim S32x5x1024x256 (![0, 1, 2, 3] : Fin 4 → Fin S32x5x1024x256.rank)
  reducesTo_S32x5x1024x256_S32x1024x256_d1 : S32x5x1024x256.ReducesTo [1] S32x1024x256
  dot_S32x1024x256_S256x256_S32x1024x256_2_1_01_0_n_n_wf : DotDims.WF S32x1024x256 S256x256 S32x1024x256 [2] [1] [0, 1] [0] [] []
  dot_S5x256x256_S32x1024x256_S5x256x32x1024_2_2_01_01_n_n_wf : DotDims.WF S5x256x256 S32x1024x256 S5x256x32x1024 [2] [2] [0, 1] [0, 1] [] []

variable [Facts₀]

def dot_S32x1024x256_S256x256_S32x1024x256_2_1_01_0_n_n : DotDims S32x1024x256 S256x256 S32x1024x256 where
  lhsContracting := [2]
  rhsContracting := [1]
  lhsNonContracting := [0, 1]
  rhsNonContracting := [0]
  lhsBatch := []
  rhsBatch := []
  wf := dot_S32x1024x256_S256x256_S32x1024x256_2_1_01_0_n_n_wf
def dot_S5x256x256_S32x1024x256_S5x256x32x1024_2_2_01_01_n_n : DotDims S5x256x256 S32x1024x256 S5x256x32x1024 where
  lhsContracting := [2]
  rhsContracting := [2]
  lhsNonContracting := [0, 1]
  rhsNonContracting := [0, 1]
  lhsBatch := []
  rhsBatch := []
  wf := dot_S5x256x256_S32x1024x256_S5x256x32x1024_2_2_01_01_n_n_wf

class Facts : Prop extends Facts₀ where

variable [Facts]
-- ==== Proof.Pieces.lean ====
/-
  What one grid point leaves in the kernel's two carried buffers, as values.

  The grid is (batch, relation), relation innermost.  Over the five relations of one batch entry the
  body keeps a [1024, 256] accumulator: at relation 0 it stores the self term (the node block against
  the transposed self weight), reads it back and adds relation 0's normalised message; at relations
  1 … 4 it adds that relation's message to what the point before left; at relation 4 it then copies
  the accumulator to the output block.  The run of each of the three control cases found the stores'
  pieces; here each carried buffer is read back from those pieces as ONE pure term of the point's
  input blocks and of what the point before left, at any float instance.
-/
import proofs.«141400_j13134009991572_1_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Between its first and last relation the body leaves, in the accumulator holding `acc`, `acc` plus the
    relation's normalised message: its one covering store's payload, the loads reading the whole buffers. -/
theorem sout_B (c : Dev nD) (i : grid0.Coords) (arg2 : Memref sig .tc .vmem S1x1024x256 .f32) (harg2 : arg2.IsWhole) (arg3 : Memref sig .tc .vmem S1x1x1024x1024 .f32) (harg3 : arg3.IsWhole) (arg4 : Memref sig .tc .vmem S256x256 .f32) (harg4 : arg4.IsWhole) (arg5 : Memref sig .tc .vmem S1x256x256 .f32) (harg5 : arg5.IsWhole) (arg6 : Memref sig .tc .vmem S1x1024x256 .f32) (harg6 : arg6.IsWhole) (arg7 : Memref sig .tc .vmem S1024x256 .f32) (harg7 : arg7.IsWhole) (hc0 : ¬cond0_0 i) (hc1 : ¬cond0_1 i) (x0 : Vec F S1x1024x256 .f32) (x1 : Vec F S1x1x1024x1024 .f32) (x2 : Vec F S256x256 .f32) (x3 : Vec F S1x256x256 .f32) (xs0 : Vec F S1024x256 .f32) :
    sout0_B_0 c i arg2 harg2 arg3 harg3 arg4 harg4 arg5 harg5 arg6 harg6 arg7 harg7 hc0 hc1 x0 x1 x2 x3 xs0 = k0_pay2 x1 x0 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg7.read_unread, View.ld_unit_zero (S := S1x1x1024x1024) hz4, View.ld_unit_zero (S := S1x1024x256) hz3, View.ld_unit_zero (S := S1x256x256) hz3, View.ld_unit_zero (S := S256x256) hz2, View.ld_unit_zero (S := S1024x256) hz2]

/-- At the last relation the accumulator is left the same way, -/
theorem sout_C (c : Dev nD) (i : grid0.Coords) (arg2 : Memref sig .tc .vmem S1x1024x256 .f32) (harg2 : arg2.IsWhole) (arg3 : Memref sig .tc .vmem S1x1x1024x1024 .f32) (harg3 : arg3.IsWhole) (arg4 : Memref sig .tc .vmem S256x256 .f32) (harg4 : arg4.IsWhole) (arg5 : Memref sig .tc .vmem S1x256x256 .f32) (harg5 : arg5.IsWhole) (arg6 : Memref sig .tc .vmem S1x1024x256 .f32) (harg6 : arg6.IsWhole) (arg7 : Memref sig .tc .vmem S1024x256 .f32) (harg7 : arg7.IsWhole) (hc0 : ¬cond0_0 i) (hc1 : cond0_1 i) (x0 : Vec F S1x1024x256 .f32) (x1 : Vec F S1x1x1024x1024 .f32) (x2 : Vec F S256x256 .f32) (x3 : Vec F S1x256x256 .f32) (xs0 : Vec F S1024x256 .f32) :
    sout0_C_0 c i arg2 harg2 arg3 harg3 arg4 harg4 arg5 harg5 arg6 harg6 arg7 harg7 hc0 hc1 x0 x1 x2 x3 xs0 = k0_pay2 x1 x0 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread, View.ld_unit_zero (S := S1x1x1024x1024) hz4, View.ld_unit_zero (S := S1x1024x256) hz3, View.ld_unit_zero (S := S1x256x256) hz3, View.ld_unit_zero (S := S256x256) hz2, View.ld_unit_zero (S := S1024x256) hz2]

/-- and the output block is the accumulator just stored, read back and given a leading unit axis. -/
theorem out_C (c : Dev nD) (i : grid0.Coords) (arg2 : Memref sig .tc .vmem S1x1024x256 .f32) (harg2 : arg2.IsWhole) (arg3 : Memref sig .tc .vmem S1x1x1024x1024 .f32) (harg3 : arg3.IsWhole) (arg4 : Memref sig .tc .vmem S256x256 .f32) (harg4 : arg4.IsWhole) (arg5 : Memref sig .tc .vmem S1x256x256 .f32) (harg5 : arg5.IsWhole) (arg6 : Memref sig .tc .vmem S1x1024x256 .f32) (harg6 : arg6.IsWhole) (arg7 : Memref sig .tc .vmem S1024x256 .f32) (harg7 : arg7.IsWhole) (hc0 : ¬cond0_0 i) (hc1 : cond0_1 i) (x0 : Vec F S1x1024x256 .f32) (x1 : Vec F S1x1x1024x1024 .f32) (x2 : Vec F S256x256 .f32) (x3 : Vec F S1x256x256 .f32) (xs0 : Vec F S1024x256 .f32) :
    out0_C_4 c i arg2 harg2 arg3 harg3 arg4 harg4 arg5 harg5 arg6 harg6 arg7 harg7 hc0 hc1 x0 x1 x2 x3 xs0 = k0_pay3 (k0_pay2 x1 x0 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1024x256) _ hz2]
  simp only [View.readAt_eq_ld, harg2.read_unread, harg3.read_unread, harg4.read_unread, harg5.read_unread, harg7.read_unread, View.ld_unit_zero (S := S1x1x1024x1024) hz4, View.ld_unit_zero (S := S1x1024x256) hz3, View.ld_unit_zero (S := S1x256x256) hz3, View.ld_unit_zero (S := S256x256) hz2, View.ld_unit_zero (S := S1024x256) hz2]

/-- At the first relation the body first stores the self term, reads it back, and adds the first message. -/
theorem sout_A (c : Dev nD) (i : grid0.Coords) (arg2 : Memref sig .tc .vmem S1x1024x256 .f32) (harg2 : arg2.IsWhole) (arg3 : Memref sig .tc .vmem S1x1x1024x1024 .f32) (harg3 : arg3.IsWhole) (arg4 : Memref sig .tc .vmem S256x256 .f32) (harg4 : arg4.IsWhole) (arg5 : Memref sig .tc .vmem S1x256x256 .f32) (harg5 : arg5.IsWhole) (arg6 : Memref sig .tc .vmem S1x1024x256 .f32) (harg6 : arg6.IsWhole) (arg7 : Memref sig .tc .vmem S1024x256 .f32) (harg7 : arg7.IsWhole) (hc0 : cond0_0 i) (hc1 : ¬cond0_1 i) (x0 : Vec F S1x1024x256 .f32) (x1 : Vec F S1x1x1024x1024 .f32) (x2 : Vec F S256x256 .f32) (x3 : Vec F S1x256x256 .f32) :
    sout0_A_0 c i arg2 harg2 arg3 harg3 arg4 harg4 arg5 harg5 arg6 harg6 arg7 harg7 hc0 hc1 x0 x1 x2 x3 = k0_pay2 x1 x0 x3 (k0_pay1 x0 x2) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg7.read_unread, View.ld_unit_zero (S := S1x1x1024x1024) hz4, View.ld_unit_zero (S := S1x1024x256) hz3, View.ld_unit_zero (S := S1x256x256) hz3, View.ld_unit_zero (S := S256x256) hz2, View.ld_unit_zero (S := S1024x256) hz2]

end Cert.KernelIdeal.Acc
end
-- ==== Proof.Blocks.lean ====
/-
  Which entries of the argument arrays a grid point's input blocks hold.

  Point t of the 32 × 5 grid (relation innermost) is batch entry t / 5, relation t % 5.  Its blocks are:
  the node features of that batch entry; the adjacency of that batch entry and relation; the whole
  self weight; that relation's weight.  A block's element sits in its array, on each axis, at the
  block index times the block's extent plus the coordinate inside the block; the block indices are
  decided once over the grid.
-/
import proofs.«141400_j13134009991572_1_alg».proof.Proof.Gen.KernelIdeal.Frame
import Idealize.ShloMosaic.Lib.Pipeline.Value
import Idealize.ShloMosaic.Lib.ValueIdx

noncomputable section

namespace Cert.KernelIdeal.Acc

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The batch entry of a grid point, -/
def batchOf (t : Fin cfg0.N) : Fin 32 :=
  ⟨t.val / 5, by have h := t.isLt; have hN : cfg0.N = 160 := N_0; omega⟩

/-- and its relation. -/
def relOf (t : Fin cfg0.N) : Fin 5 := ⟨t.val % 5, Nat.mod_lt _ (by decide)⟩

/-- The windows' block indices at a point, decided over the grid. -/
theorem idx_facts : ∀ t : Fin cfg0.N,
    win0_0.index t (0 : Fin 3) = t.val / 5 ∧ win0_0.index t (1 : Fin 3) = 0 ∧ win0_0.index t (2 : Fin 3) = 0
    ∧ win0_1.index t (0 : Fin 4) = t.val / 5 ∧ win0_1.index t (1 : Fin 4) = t.val % 5
    ∧ win0_1.index t (2 : Fin 4) = 0 ∧ win0_1.index t (3 : Fin 4) = 0
    ∧ win0_2.index t (0 : Fin 2) = 0 ∧ win0_2.index t (1 : Fin 2) = 0
    ∧ win0_3.index t (0 : Fin 3) = t.val % 5 ∧ win0_3.index t (1 : Fin 3) = 0 ∧ win0_3.index t (2 : Fin 3) = 0
    ∧ win0_4.index t (0 : Fin 3) = t.val / 5 ∧ win0_4.index t (1 : Fin 3) = 0 ∧ win0_4.index t (2 : Fin 3) = 0 :=
  (by decide +kernel : ∀ t : Fin grid0.N, _)

/-- The node block of a point is its batch entry's rows. -/
theorem blk0_apply (c : Dev nD) (t : Fin cfg0.N) (n : Fin 1024) (d : Fin 256) :
    (iblk m c 0 t : Vec F S1x1024x256 .f32) (ix3 (0 : Fin 1) n d)
      = m ((c : Thread nD τ).loc main_arg0) (ix3 (batchOf t) n d) := by
  obtain ⟨e0, e1, e2, -⟩ := idx_facts t
  unfold iblk
  rw [View.read_apply]
  show V m c main_arg0 (((cfg0.win 0).blk t).view.emb (ix3 (0 : Fin 1) n d)) = _
  refine congrArg (m ((c : Thread nD τ).loc main_arg0)) (funext fun a => Fin.ext ?_)
  match a with
  | ⟨0, _⟩ => show win0_0.index t (0 : Fin 3) * 1 + 1 * 0 = t.val / 5; omega
  | ⟨1, _⟩ => show win0_0.index t (1 : Fin 3) * 1024 + 1 * n.val = n.val; omega
  | ⟨2, _⟩ => show win0_0.index t (2 : Fin 3) * 256 + 1 * d.val = d.val; omega

/-- The adjacency block of a point is its batch entry's and relation's matrix. -/
theorem blk1_apply (c : Dev nD) (t : Fin cfg0.N) (n : Fin 1024) (k : Fin 1024) :
    (iblk m c 1 t : Vec F S1x1x1024x1024 .f32) (ix4 (0 : Fin 1) (0 : Fin 1) n k)
      = m ((c : Thread nD τ).loc main_arg1) (ix4 (batchOf t) (relOf t) n k) := by
  obtain ⟨-, -, -, e0, e1, e2, e3, -⟩ := idx_facts t
  unfold iblk
  rw [View.read_apply]
  show V m c main_arg1 (((cfg0.win 1).blk t).view.emb (ix4 (0 : Fin 1) (0 : Fin 1) n k)) = _
  refine congrArg (m ((c : Thread nD τ).loc main_arg1)) (funext fun a => Fin.ext ?_)
  match a with
  | ⟨0, _⟩ => show win0_1.index t (0 : Fin 4) * 1 + 1 * 0 = t.val / 5; omega
  | ⟨1, _⟩ => show win0_1.index t (1 : Fin 4) * 1 + 1 * 0 = t.val % 5; omega
  | ⟨2, _⟩ => show win0_1.index t (2 : Fin 4) * 1024 + 1 * n.val = n.val; omega
  | ⟨3, _⟩ => show win0_1.index t (3 : Fin 4) * 1024 + 1 * k.val = k.val; omega

/-- The self-weight block is the whole self weight at every point. -/
theorem blk2_apply (c : Dev nD) (t : Fin cfg0.N) (h : Fin 256) (d : Fin 256) :
    (iblk m c 2 t : Vec F S256x256 .f32) (ix2 h d) = m ((c : Thread nD τ).loc main_arg2) (ix2 h d) := by
  obtain ⟨-, -, -, -, -, -, -, e0, e1, -⟩ := idx_facts t
  unfold iblk
  rw [View.read_apply]
  show V m c main_arg2 (((cfg0.win 2).blk t).view.emb (ix2 h d)) = _
  refine congrArg (m ((c : Thread nD τ).loc main_arg2)) (funext fun a => Fin.ext ?_)
  match a with
  | ⟨0, _⟩ => show win0_2.index t (0 : Fin 2) * 256 + 1 * h.val = h.val; omega
  | ⟨1, _⟩ => show win0_2.index t (1 : Fin 2) * 256 + 1 * d.val = d.val; omega

/-- The relation-weight block of a point is its relation's matrix. -/
theorem blk3_apply (c : Dev nD) (t : Fin cfg0.N) (h : Fin 256) (d : Fin 256) :
    (iblk m c 3 t : Vec F S1x256x256 .f32) (ix3 (0 : Fin 1) h d)
      = m ((c : Thread nD τ).loc main_arg3) (ix3 (relOf t) h d) := by
  obtain ⟨-, -, -, -, -, -, -, -, -, e0, e1, e2, -⟩ := idx_facts t
  unfold iblk
  rw [View.read_apply]
  show V m c main_arg3 (((cfg0.win 3).blk t).view.emb (ix3 (0 : Fin 1) h d)) = _
  refine congrArg (m ((c : Thread nD τ).loc main_arg3)) (funext fun a => Fin.ext ?_)
  match a with
  | ⟨0, _⟩ => show win0_3.index t (0 : Fin 3) * 1 + 1 * 0 = t.val % 5; omega
  | ⟨1, _⟩ => show win0_3.index t (1 : Fin 3) * 256 + 1 * h.val = h.val; omega
  | ⟨2, _⟩ => show win0_3.index t (2 : Fin 3) * 256 + 1 * d.val = d.val; omega

end Cert.KernelIdeal.Acc

end
-- ==== Proof.Spec.lean ====
/-
  The function both programs compute, over the extended reals: a relational graph convolution.

  For a batch entry b, a node n and an output feature h, with node features X[b, n, ·], a self
  weight W0[h, ·], one weight Wr[r, h, ·] per relation r (five of them) and the adjacency
  A[b, r, n, ·] of relation r:

      out (b, n, h) = ⟨X[b, n, ·], W0[h, ·]⟩ + ∑ r, ⟨X[b, n, ·], Wr[r, h, ·]⟩ / c (b, r, n)

  where c (b, r, n) is the row sum ∑ k, A[b, r, n, k], replaced by 1 where that sum is 0, and the
  quotient is the extended reals' (Ideal.div).  Nothing here is finite-only: the two programs differ
  in the order of the additions and of each product's factors, which the extended reals'
  commutative additive monoid and commutative product absorb.
-/
import Idealize.ShloMosaic.PureOps.Ideal
import Idealize.ShloMosaic.PureOps.Ideal.Laws
import Idealize.ShloMosaic.Lib.ValueIdx

noncomputable section

namespace Cert.RelConv

open Idealize.ShloMosaic Idealize.ShloMosaic.ValueIdx

/-- The arrays' shapes: node features, adjacency, self weight, relation weights. -/
abbrev SX : Shape := ⟨3, ![32, 1024, 256]⟩
abbrev SA : Shape := ⟨4, ![32, 5, 1024, 1024]⟩
abbrev SW0 : Shape := ⟨2, ![256, 256]⟩
abbrev SWr : Shape := ⟨3, ![5, 256, 256]⟩

/-- The normaliser of a row sum `s`: 1 where `s` is 0 (compared as floats: ordered and equal), else `s`. -/
def denom (s : Ideal .f32) : Ideal .f32 :=
  Scalar.select (FloatOps.cmpf (F := Ideal) .oeq s (FloatOps.ofBits (F := Ideal) .f32 0x00000000#32))
    (FloatOps.ofBits (F := Ideal) .f32 0x3F800000#32) s

/-- The self term: node `n` of batch `b` against row `h` of the self weight. -/
def self (X : SX.Idx → EReal) (W0 : SW0.Idx → EReal) (b : Fin 32) (n : Fin 1024) (h : Fin 256) : EReal :=
  ∑ d : Fin 256, X (ix3 b n d) * W0 (ix2 h d)

/-- Relation `r`'s degree of node `n` in batch `b`: the row sum of its adjacency. -/
def deg (A : SA.Idx → EReal) (b : Fin 32) (r : Fin 5) (n : Fin 1024) : EReal :=
  ∑ k : Fin 1024, A (ix4 b r n k)

/-- Relation `r`'s message: node `n` against row `h` of that relation's weight, over the normaliser. -/
def msg (X : SX.Idx → EReal) (A : SA.Idx → EReal) (Wr : SWr.Idx → EReal) (b : Fin 32) (r : Fin 5) (n : Fin 1024)
    (h : Fin 256) : EReal :=
  Ideal.div (∑ d : Fin 256, X (ix3 b n d) * Wr (ix3 r h d)) (denom (deg A b r n))

/-- The result at coordinates: the self term plus the five messages. -/
def out (X : SX.Idx → EReal) (A : SA.Idx → EReal) (W0 : SW0.Idx → EReal) (Wr : SWr.Idx → EReal) (b : Fin 32)
    (n : Fin 1024) (h : Fin 256) : EReal :=
  self X W0 b n h + ∑ r : Fin 5, msg X A Wr b r n h

/-- The result array. -/
def G (X : SX.Idx → EReal) (A : SA.Idx → EReal) (W0 : SW0.Idx → EReal) (Wr : SWr.Idx → EReal) : SX.Idx → EReal :=
  fun i => out X A W0 Wr (i 0) (i 1) (i 2)

theorem G_ix3 (X : SX.Idx → EReal) (A : SA.Idx → EReal) (W0 : SW0.Idx → EReal) (Wr : SWr.Idx → EReal) (b : Fin 32)
    (n : Fin 1024) (h : Fin 256) : G X A W0 Wr (ix3 b n h) = out X A W0 Wr b n h := rfl

end Cert.RelConv

end
-- ==== Proof.Payload.lean ====
import proofs.«141400_j13134009991572_1_alg».proof.Proof.Gen.KernelIdeal.Skeleton
import proofs.«141400_j13134009991572_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Pay
open Cert.KernelIdeal Cert.KernelIdeal.Gen Idealize.ShloMosaic Idealize.ShloMosaic.ValueIdx

/-! The three values the kernel stores, each read at one index over the extended reals: the self term
`∑ d, X[0, n, d] * W0[h, d]`; the accumulator plus one relation's message, the product `∑ d, X[0, n, d] * Wr[0, h, d]`
over the normaliser of the adjacency's row sum; and the accumulator carried to the output block unchanged. Each layout
operation (a cast that drops or adds unit axes, a transpose, a column broadcast) reads its operand at one index, the
rounding to the narrower format is the identity on the extended reals, the lane sum is the sum over the columns, and the
matrix product into the zero splat is the sum over the contraction coordinate. -/

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the matrix product keeps the output's row. -/
theorem dot_lhs0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- The right operand's index of the matrix product keeps the output's column. -/
theorem dot_rhs1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The kernel's matrix product into the zero splat: at `(n, h)`, the sum over the contraction coordinate `d` of the
left operand at `(n, d)` times the right operand at `(d, h)`. -/
theorem matmul_zero_apply (L : FVec Ideal S1024x256 .bf16) (R : FVec Ideal S256x256 .bf16) (n : Fin 1024) (h : Fin 256) :
    matmul dot_S1024x256_S256x256_S1024x256_1_0_0_1_n_n none L R (constant (F := Ideal) S1024x256 .f32 0x00000000#32) (ix2 n h)
      = ∑ d : Fin 256, L (ix2 n d) * R (ix2 d h) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 n h)
      ((contrEquiv1 dot_S1024x256_S256x256_S1024x256_1_0_0_1_n_n 256 rfl rfl).symm k) = ix2 n k :=
    funext fun a => Fin.ext (by
      match a with
      | ⟨0, _⟩ => exact dot_lhs0 _ _
      | ⟨1, _⟩ => exact (dot_S1024x256_S256x256_S1024x256_1_0_0_1_n_n.lhsIdx_val_of_single rfl _ _).trans hk)
  have er : dot_S1024x256_S256x256_S1024x256_1_0_0_1_n_n.rhsIdx (ix2 n h)
      ((contrEquiv1 dot_S1024x256_S256x256_S1024x256_1_0_0_1_n_n 256 rfl rfl).symm k) = ix2 k h :=
    funext fun a => Fin.ext (by
      match a with
      | ⟨0, _⟩ => exact (dot_S1024x256_S256x256_S1024x256_1_0_0_1_n_n.rhsIdx_val_of_single rfl _ _).trans hk
      | ⟨1, _⟩ => exact dot_rhs1 _ _)
  rw [el, er]

/-- The lane sum of a `[1024, 1024]` array over its columns reads, at row `r`, the sum over the columns `k` of the
array at `(r, k)`. -/
theorem rowSum_apply (src : FVec Ideal S1024x1024 .f32) (h : S1024x1024.Reduces [1] S1024) (hφ : FKind.Formats .f32)
    (hacc : (0x00000000#32 : BitVec 32) = 0x00000000#32) (r : Fin 1024) :
    multiReduction .add [1] S1024 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext c
  refine Fin.ext ?_
  match c with
  | ⟨0, _⟩ => rfl
  | ⟨1, _⟩ => rfl

theorem pay1_apply (x0 : Vec Ideal S1x1024x256 .f32) (x2 : Vec Ideal S256x256 .f32) (n : Fin 1024) (h : Fin 256) :
    k0_pay1 (F := Ideal) x0 x2 (ix2 n h) = ∑ d : Fin 256, x0 (ix3 (0 : Fin 1) n d) * x2 (ix2 h d) := by
  unfold k0_pay1
  rw [shapeCast_self]
  refine (matmul_zero_apply _ _ n h).trans ?_
  refine Finset.sum_congr rfl fun d _ => ?_
  rw [truncf_apply, shapeCast_1ab_ab_apply, transpose_ix2_apply, truncf_apply]

theorem pay2_apply (x1 : Vec Ideal S1x1x1024x1024 .f32) (x0 : Vec Ideal S1x1024x256 .f32) (x3 : Vec Ideal S1x256x256 .f32)
    (acc : Vec Ideal S1024x256 .f32) (n : Fin 1024) (h : Fin 256) :
    k0_pay2 (F := Ideal) x1 x0 x3 acc (ix2 n h)
      = acc (ix2 n h) + Ideal.div (∑ d : Fin 256, x0 (ix3 (0 : Fin 1) n d) * x3 (ix3 (0 : Fin 1) h d))
          (Cert.RelConv.denom (∑ k : Fin 1024, x1 (ix4 (0 : Fin 1) (0 : Fin 1) n k))) := by
  unfold k0_pay2
  rw [shapeCast_self, addf_apply, divf_apply]
  refine congrArg (acc (ix2 n h) + ·) ?_
  refine congrArg₂ Ideal.div ?_ ?_
  · refine (matmul_zero_apply _ _ n h).trans ?_
    refine Finset.sum_congr rfl fun d _ => ?_
    rw [truncf_apply, shapeCast_1ab_ab_apply, transpose_ix2_apply, truncf_apply, shapeCast_1ab_ab_apply]
  · refine (broadcastTo_a1_ab_apply _ _ n h).trans ?_
    rw [select_apply, cmpf_apply, broadcast_apply, broadcast_apply, shapeCast_a_a1_apply]
    exact congrArg Cert.RelConv.denom
      ((rowSum_apply _ _ _ _ n).trans (Finset.sum_congr rfl fun k _ => shapeCast_11ab_ab_apply x1 _ n k))

theorem pay3_apply (acc : Vec Ideal S1024x256 .f32) (n : Fin 1024) (h : Fin 256) :
    k0_pay3 (F := Ideal) acc (ix3 (0 : Fin 1) n h) = acc (ix2 n h) := by
  unfold k0_pay3
  exact shapeCast_ab_1ab_apply acc _ (0 : Fin 1) n h

end Cert.KernelIdeal.Pay
end
-- ==== Proof.Fold.lean ====
/-
  The kernel's result array, as one function of its argument arrays, at the exact instance.

  Over the five grid points of one batch entry the accumulator runs through
      self + msg 0,   (self + msg 0) + msg 1,   …,   ((((self + msg 0) + msg 1) + msg 2) + msg 3) + msg 4,
  each message read off that point's blocks (the batch entry's node rows, the relation's adjacency rows
  and weight).  The fold is unrolled, index by index, into the self term plus a sum over the points of the
  run; at the batch entry's last point the output block is the accumulator, and that point is the only one
  that writes the block back.  The 32 written blocks tile the result array, so the array ends holding the
  specification's convolution of the argument arrays.
-/
import proofs.«141400_j13134009991572_1_alg».proof.Proof.Gen.KernelIdeal.Value
import proofs.«141400_j13134009991572_1_alg».proof.Proof.Pieces
import proofs.«141400_j13134009991572_1_alg».proof.Proof.Blocks
import proofs.«141400_j13134009991572_1_alg».proof.Proof.Payload
import proofs.«141400_j13134009991572_1_alg».proof.Proof.Spec
import Idealize.ShloMosaic.Lib.Pipeline.Value
import Idealize.ShloMosaic.Lib.ValueIdx

noncomputable section

namespace Cert.KernelIdeal.Acc

open Cert.KernelIdeal Cert.KernelIdeal.Gen Idealize.ShloMosaic Idealize.ShloMosaic.TcCoe Idealize.SL.Sem
open Idealize.ShloMosaic.Pipeline (Dat)
open Idealize.ShloMosaic.ValueIdx
open Cert.RelConv (self msg deg denom out G G_ix3)

variable (m : (ℓ : Loc nD τ sig) → Buf (Elt Ideal) ℓ) (ρ : Dev nD → PrngReg)

/-- The four argument arrays as the region finds them, on core `c`. -/
abbrev aX (c : Dev nD) : Cert.RelConv.SX.Idx → EReal := m ((c : Thread nD τ).loc main_arg0)
abbrev aA (c : Dev nD) : Cert.RelConv.SA.Idx → EReal := m ((c : Thread nD τ).loc main_arg1)
abbrev aW0 (c : Dev nD) : Cert.RelConv.SW0.Idx → EReal := m ((c : Thread nD τ).loc main_arg2)
abbrev aWr (c : Dev nD) : Cert.RelConv.SWr.Idx → EReal := m ((c : Thread nD τ).loc main_arg3)

/-- The accumulator after the first relation of a batch entry: the self term plus relation 0's message. -/
theorem step_first (c : Dev nD) (t : Fin cfg0.N) (q : Fin 32) (hq : batchOf t = q) (n : Fin 1024) (h : Fin 256) :
    k0_pay2 (F := Ideal) (iblk m c 1 t) (iblk m c 0 t) (iblk m c 3 t) (k0_pay1 (iblk m c 0 t) (iblk m c 2 t)) (ix2 n h)
      = self (aX m c) (aW0 m c) q n h + msg (aX m c) (aA m c) (aWr m c) q (relOf t) n h := by
  subst hq
  rw [Pay.pay2_apply (iblk m c 1 t) (iblk m c 0 t) (iblk m c 3 t) (k0_pay1 (iblk m c 0 t) (iblk m c 2 t)) n h,
    Pay.pay1_apply (iblk m c 0 t) (iblk m c 2 t) n h]
  simp only [blk0_apply m c t, blk1_apply m c t, blk2_apply m c t, blk3_apply m c t]
  rfl

/-- One more relation: what the point before left plus this relation's message. -/
theorem step_next (c : Dev nD) (t : Fin cfg0.N) (q : Fin 32) (hq : batchOf t = q) (acc : Vec Ideal S1024x256 .f32)
    (n : Fin 1024) (h : Fin 256) :
    k0_pay2 (F := Ideal) (iblk m c 1 t) (iblk m c 0 t) (iblk m c 3 t) acc (ix2 n h)
      = acc (ix2 n h) + msg (aX m c) (aA m c) (aWr m c) q (relOf t) n h := by
  subst hq
  rw [Pay.pay2_apply (iblk m c 1 t) (iblk m c 0 t) (iblk m c 3 t) acc n h]
  simp only [blk0_apply m c t, blk1_apply m c t, blk3_apply m c t]
  rfl

/-- THE ACCUMULATOR after grid point `t`, index by index: the self term of `t`'s batch entry plus the messages of
    the relations up to `t`'s — the fold from the batch entry's first point, unrolled as a sum. -/
theorem scratch_at (c : Dev nD) (t : Fin cfg0.N) (i : S1024x256.Idx) :
    (outsAt0 m c t.val t.isLt).2 i
      = self (aX m c) (aW0 m c) (batchOf t) (i 0) (i 1)
        + ∑ s ∈ Finset.range (t.val % 5 + 1),
            msg (aX m c) (aA m c) (aWr m c) (batchOf t) ⟨(5 * (t.val / 5) + s) % 5, Nat.mod_lt _ (by decide)⟩ (i 0) (i 1) := by
  have hN : cfg0.N = 160 := N_0
  have ht := t.isLt
  refine (congrFun (Value.soutsAt0_0_eq m c t) i).trans ?_
  refine Pipeline.accAt_add_apply (β := EReal) (fun n h => Value.scAt0_0 m c n h (VS0_0.read (Elt Ideal) VS0_0.junk)) (Value.scAt0_0 m c)
    (fun i => self (aX m c) (aW0 m c) (batchOf t) (i 0) (i 1))
    (fun n i => msg (aX m c) (aA m c) (aWr m c) (batchOf t) ⟨n % 5, Nat.mod_lt _ (by decide)⟩ (i 0) (i 1))
    (5 * (t.val / 5)) 4 ?_ ?_ (t.val % 5) (by omega) _ i
  · intro hb i
    obtain ⟨n, h, rfl⟩ : ∃ (n : Fin 1024) (h : Fin 256), i = ix2 n h := ⟨i 0, i 1, eq_ix2 i⟩
    have h0 : (5 * (t.val / 5)) % 5 = 0 := Nat.mul_mod_right 5 _
    have h1 : ¬(5 * (t.val / 5)) % 5 = 4 := by omega
    unfold Value.scAt0_0
    rw [dif_pos h0, dif_neg h1,
      sout_A (F := Ideal) c (grid0.coords (⟨5 * (t.val / 5), hb⟩ : Fin cfg0.N)) (ms0_0 (⟨5 * (t.val / 5), hb⟩ : Fin cfg0.N)) (hs0_0 (⟨5 * (t.val / 5), hb⟩ : Fin cfg0.N)) (ms0_1 (⟨5 * (t.val / 5), hb⟩ : Fin cfg0.N)) (hs0_1 (⟨5 * (t.val / 5), hb⟩ : Fin cfg0.N)) (ms0_2 (⟨5 * (t.val / 5), hb⟩ : Fin cfg0.N)) (hs0_2 (⟨5 * (t.val / 5), hb⟩ : Fin cfg0.N)) (ms0_3 (⟨5 * (t.val / 5), hb⟩ : Fin cfg0.N)) (hs0_3 (⟨5 * (t.val / 5), hb⟩ : Fin cfg0.N)) (ms0_4 (⟨5 * (t.val / 5), hb⟩ : Fin cfg0.N)) (hs0_4 (⟨5 * (t.val / 5), hb⟩ : Fin cfg0.N)) scM0_0 (Memref.isWhole_whole _) _ _ (iblk m c 0 (⟨5 * (t.val / 5), hb⟩ : Fin cfg0.N)) (iblk m c 1 (⟨5 * (t.val / 5), hb⟩ : Fin cfg0.N)) (iblk m c 2 (⟨5 * (t.val / 5), hb⟩ : Fin cfg0.N)) (iblk m c 3 (⟨5 * (t.val / 5), hb⟩ : Fin cfg0.N))]
    exact step_first m c ⟨5 * (t.val / 5), hb⟩ (batchOf t) (Fin.ext (by show 5 * (t.val / 5) / 5 = t.val / 5; omega)) n h
  · intro p hb acc i hlo hhi
    obtain ⟨n, h, rfl⟩ : ∃ (n : Fin 1024) (h : Fin 256), i = ix2 n h := ⟨i 0, i 1, eq_ix2 i⟩
    have h0 : ¬p % 5 = 0 := by omega
    have hq : batchOf (⟨p, hb⟩ : Fin cfg0.N) = batchOf t := Fin.ext (by show p / 5 = t.val / 5; omega)
    unfold Value.scAt0_0
    rw [dif_neg h0]
    by_cases h1 : p % 5 = 4
    · rw [dif_pos h1, sout_C (F := Ideal) c (grid0.coords (⟨p, hb⟩ : Fin cfg0.N)) (ms0_0 (⟨p, hb⟩ : Fin cfg0.N)) (hs0_0 (⟨p, hb⟩ : Fin cfg0.N)) (ms0_1 (⟨p, hb⟩ : Fin cfg0.N)) (hs0_1 (⟨p, hb⟩ : Fin cfg0.N)) (ms0_2 (⟨p, hb⟩ : Fin cfg0.N)) (hs0_2 (⟨p, hb⟩ : Fin cfg0.N)) (ms0_3 (⟨p, hb⟩ : Fin cfg0.N)) (hs0_3 (⟨p, hb⟩ : Fin cfg0.N)) (ms0_4 (⟨p, hb⟩ : Fin cfg0.N)) (hs0_4 (⟨p, hb⟩ : Fin cfg0.N)) scM0_0 (Memref.isWhole_whole _) _ _ (iblk m c 0 (⟨p, hb⟩ : Fin cfg0.N)) (iblk m c 1 (⟨p, hb⟩ : Fin cfg0.N)) (iblk m c 2 (⟨p, hb⟩ : Fin cfg0.N)) (iblk m c 3 (⟨p, hb⟩ : Fin cfg0.N)) acc]
      exact step_next m c ⟨p, hb⟩ (batchOf t) hq acc n h
    · rw [dif_neg h1, sout_B (F := Ideal) c (grid0.coords (⟨p, hb⟩ : Fin cfg0.N)) (ms0_0 (⟨p, hb⟩ : Fin cfg0.N)) (hs0_0 (⟨p, hb⟩ : Fin cfg0.N)) (ms0_1 (⟨p, hb⟩ : Fin cfg0.N)) (hs0_1 (⟨p, hb⟩ : Fin cfg0.N)) (ms0_2 (⟨p, hb⟩ : Fin cfg0.N)) (hs0_2 (⟨p, hb⟩ : Fin cfg0.N)) (ms0_3 (⟨p, hb⟩ : Fin cfg0.N)) (hs0_3 (⟨p, hb⟩ : Fin cfg0.N)) (ms0_4 (⟨p, hb⟩ : Fin cfg0.N)) (hs0_4 (⟨p, hb⟩ : Fin cfg0.N)) scM0_0 (Memref.isWhole_whole _) _ _ (iblk m c 0 (⟨p, hb⟩ : Fin cfg0.N)) (iblk m c 1 (⟨p, hb⟩ : Fin cfg0.N)) (iblk m c 2 (⟨p, hb⟩ : Fin cfg0.N)) (iblk m c 3 (⟨p, hb⟩ : Fin cfg0.N)) acc]
      exact step_next m c ⟨p, hb⟩ (batchOf t) hq acc n h

/-- At a batch entry's last relation the output block is the accumulator just stored, under a leading unit axis. -/
theorem out_at (c : Dev nD) (t : Fin cfg0.N) (h4 : t.val % 5 = 4) :
    (outsAt0 m c t.val t.isLt).1 = k0_pay3 (outsAt0 m c t.val t.isLt).2 := by
  have h0 : ¬t.val % 5 = 0 := by omega
  rw [outsAt0_C m c t h0 h4]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2]

/-- What a batch entry's last point writes back, entry by entry: the convolution at that batch entry. -/
theorem flushed_val (c : Dev nD) (t : Fin cfg0.N) (h4 : t.val % 5 = 4) (n : Fin 1024) (h : Fin 256) :
    ((dats m 0 c).flushed 4 t : Vec Ideal S1x1024x256 .f32) (ix3 (0 : Fin 1) n h)
      = out (aX m c) (aA m c) (aW0 m c) (aWr m c) (batchOf t) n h := by
  rw [Value.flushed4 m c t]
  show ((outsAt0 m c t.val t.isLt).1 : Vec Ideal S1x1024x256 .f32) (ix3 (0 : Fin 1) n h) = _
  rw [out_at m c t h4, Pay.pay3_apply (outsAt0 m c t.val t.isLt).2 n h, scratch_at m c t (ix2 n h), h4]
  unfold Cert.RelConv.out
  refine congrArg (self (aX m c) (aW0 m c) (batchOf t) n h + ·) ?_
  rw [Finset.sum_range]
  refine Finset.sum_congr rfl fun s _ => ?_
  have e : (⟨(5 * (t.val / 5) + s.val) % 5, Nat.mod_lt _ (by decide)⟩ : Fin 5) = s := Fin.ext (by
    have := s.isLt; show (5 * (t.val / 5) + s.val) % 5 = s.val; omega)
  rw [e]

/-- The block of the specification's array under a point's output window is the convolution at that point's batch entry. -/
theorem G_blk (c : Dev nD) (t : Fin cfg0.N) (n : Fin 1024) (h : Fin 256) :
    (((cfg0.win 4).blk t).view.read (Elt Ideal) (G (aX m c) (aA m c) (aW0 m c) (aWr m c)) : Vec Ideal S1x1024x256 .f32)
        (ix3 (0 : Fin 1) n h)
      = out (aX m c) (aA m c) (aW0 m c) (aWr m c) (batchOf t) n h := by
  obtain ⟨-, -, -, -, -, -, -, -, -, -, -, -, e0, e1, e2⟩ := idx_facts t
  rw [View.read_apply]
  show G (aX m c) (aA m c) (aW0 m c) (aWr m c) (((cfg0.win 4).blk t).view.emb (ix3 (0 : Fin 1) n h)) = _
  have e : ((cfg0.win 4).blk t).view.emb (ix3 (0 : Fin 1) n h) = ix3 (batchOf t) n h := funext fun a => Fin.ext (by
    match a with
    | ⟨0, _⟩ => show win0_4.index t (0 : Fin 3) * 1 + 1 * 0 = t.val / 5; omega
    | ⟨1, _⟩ => show win0_4.index t (1 : Fin 3) * 1024 + 1 * n.val = n.val; omega
    | ⟨2, _⟩ => show win0_4.index t (2 : Fin 3) * 256 + 1 * h.val = h.val; omega)
  rw [e, G_ix3]

/-- WHAT A WRITE-BACK WRITES is its block of the specification's array. -/
theorem flushed_eq (c : Dev nD) (t : Fin cfg0.N) (hf : (cfg0.win 4).flush t = true) :
    (dats m 0 c).flushed 4 t
      = ((cfg0.win 4).blk t).view.read (Elt Ideal) (G (aX m c) (aA m c) (aW0 m c) (aWr m c)) := by
  have h4 : t.val % 5 = 4 := (flush0_4 t).mp hf
  have key : ∀ (z : Fin 1) (n : Fin 1024) (h : Fin 256),
      ((dats m 0 c).flushed 4 t : Vec Ideal S1x1024x256 .f32) (ix3 z n h)
        = (((cfg0.win 4).blk t).view.read (Elt Ideal) (G (aX m c) (aA m c) (aW0 m c) (aWr m c)) : Vec Ideal S1x1024x256 .f32) (ix3 z n h) := by
    intro z n h
    obtain rfl : z = 0 := Subsingleton.elim _ _
    exact (flushed_val m c t h4 n h).trans (G_blk m c t n h).symm
  funext y
  have ey := eq_ix3 (n0 := 1) (n1 := 1024) (n2 := 256) y
  rw [ey]
  exact key _ _ _

/-- An entry of the result array is in a point's output block iff each coordinate is in the block's range. -/
theorem mem_blk (t : Fin cfg0.N) (i : S32x1024x256.Idx) :
    i ∈ ((cfg0.win 4).blk t).view.set
      ↔ ∀ a : Fin 3, win0_4.index t a * S1x1024x256.size a ≤ (i a).val
          ∧ (i a).val < win0_4.index t a * S1x1024x256.size a + S1x1024x256.size a := by
  show i ∈ ((View.whole main_v0).slice (win0_4.rect t)).set ↔ _
  rw [View.set_slice_whole, Rect.mem_set_unit]
  exact Iff.rfl

/-- Every entry of the result array lies in the block its batch entry's last point writes back. -/
theorem cover (i : S32x1024x256.Idx) :
    ∃ t : Fin cfg0.N, (cfg0.win 4).flush t = true ∧ i ∈ ((cfg0.win 4).blk t).view.set := by
  have hN : cfg0.N = 160 := N_0
  have hi0 : (i 0).val < 32 := (i 0).isLt
  have hi1 : (i 1).val < 1024 := (i 1).isLt
  have hi2 : (i 2).val < 256 := (i 2).isLt
  have hlt : 5 * (i 0).val + 4 < cfg0.N := by omega
  obtain ⟨-, -, -, -, -, -, -, -, -, -, -, -, e0, e1, e2⟩ := idx_facts ⟨5 * (i 0).val + 4, hlt⟩
  refine ⟨⟨5 * (i 0).val + 4, hlt⟩, (flush0_4 _).mpr (by show (5 * (i 0).val + 4) % 5 = 4; omega), ?_⟩
  rw [mem_blk]
  intro a
  match a with
  | ⟨0, _⟩ =>
    show win0_4.index ⟨5 * (i 0).val + 4, hlt⟩ (0 : Fin 3) * 1 ≤ (i 0).val
      ∧ (i 0).val < win0_4.index ⟨5 * (i 0).val + 4, hlt⟩ (0 : Fin 3) * 1 + 1
    rw [e0]; show (5 * (i 0).val + 4) / 5 * 1 ≤ (i 0).val ∧ (i 0).val < (5 * (i 0).val + 4) / 5 * 1 + 1; omega
  | ⟨1, _⟩ =>
    show win0_4.index ⟨5 * (i 0).val + 4, hlt⟩ (1 : Fin 3) * 1024 ≤ (i 1).val
      ∧ (i 1).val < win0_4.index ⟨5 * (i 0).val + 4, hlt⟩ (1 : Fin 3) * 1024 + 1024
    rw [e1]; omega
  | ⟨2, _⟩ =>
    show win0_4.index ⟨5 * (i 0).val + 4, hlt⟩ (2 : Fin 3) * 256 ≤ (i 2).val
      ∧ (i 2).val < win0_4.index ⟨5 * (i 0).val + 4, hlt⟩ (2 : Fin 3) * 256 + 256
    rw [e2]; omega

/-- So the result array ends holding the convolution of the argument arrays. -/
theorem final (c : Dev nD) :
    (dats m 0 c).arrAt 4 cfg0.N = G (aX m c) (aA m c) (aW0 m c) (aWr m c) :=
  (dats m 0 c).arrAt_eq_of_cover 4 (G (aX m c) (aA m c) (aW0 m c) (aWr m c)) (flushed_eq m c) cover

/-- The kernel's run, read: the result array at the convolution of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Acc
end
-- ==== Proof.RefValue.lean ====
/-
  The reference program's result stage is the relational graph convolution of the specification.

  Read index by index, the reference computes, at batch entry b, node n and output feature h,

      (0 + ∑ r, (∑ d, Wr[r, h, d] * X[b, n, d]) / c (b, r, n)) + ∑ d, X[b, n, d] * W0[h, d]

  with c (b, r, n) the row sum 0 + ∑ k, A[b, r, n, k], replaced by 1 where it compares equal to 0.  The
  specification's value is ∑ d, X[b, n, d] * W0[h, d] + ∑ r, (∑ d, X[b, n, d] * Wr[r, h, d]) / c (b, r, n).
  The two differ by a zero summand (twice), by the order of each product's factors under a sum, and by the order
  of the last addition: the extended reals' addition and product are commutative and 0 is neutral.
-/
import proofs.«141400_j13134009991572_1_alg».proof.Proof.Gen.ReferenceIdeal.Read
import proofs.«141400_j13134009991572_1_alg».proof.Proof.Spec

noncomputable section
namespace Cert.ReferenceIdeal.RefValue
open Cert.ReferenceIdeal Cert.ReferenceIdeal.Gen Idealize.ShloMosaic Idealize.ShloMosaic.ValueIdx

/-- The row sum of the adjacency at coordinates: the initial value is the float zero, which is 0. -/
theorem v3_at (A : (⟨S32x5x1024x1024, .f32⟩ : BufTy).Contents (Elt Ideal)) (b : Fin 32) (r : Fin 5) (n : Fin 1024) :
    Read.val_main_v3 (F := Ideal) A (ix3 b r n) = ∑ k : Fin 1024, A (ix4 b r n k) := by
  rw [Read.val_main_v3_apply, Read.val_main_cst_apply, Ideal.ofBits_def, Ideal.ofBits_zero_f32, zero_add]
  refine Finset.sum_congr rfl fun k _ => congrArg A ?_
  exact funext fun a => Fin.ext (by match a with | ⟨0, _⟩ => rfl | ⟨1, _⟩ => rfl | ⟨2, _⟩ => rfl | ⟨3, _⟩ => rfl)

/-- The row sum with a trailing unit axis. -/
theorem v4_at (A : (⟨S32x5x1024x1024, .f32⟩ : BufTy).Contents (Elt Ideal)) (b : Fin 32) (r : Fin 5) (n : Fin 1024)
    (z : Fin 1) :
    Read.val_main_v4 (F := Ideal) A (ix4 b r n z) = ∑ k : Fin 1024, A (ix4 b r n k) := by
  have e : Read.idx_main_v4 (ix4 b r n z) = ix3 b r n :=
    funext fun a => Fin.ext (by match a with | ⟨0, _⟩ => rfl | ⟨1, _⟩ => rfl | ⟨2, _⟩ => rfl)
  rw [Read.val_main_v4_apply, e, v3_at]

/-- The normaliser: the row sum, with 1 selected where it compares equal to the float zero. -/
theorem v8_at (A : (⟨S32x5x1024x1024, .f32⟩ : BufTy).Contents (Elt Ideal)) (b : Fin 32) (r : Fin 5) (n : Fin 1024)
    (z : Fin 1) :
    Read.val_main_v8 (F := Ideal) A (ix4 b r n z) = Cert.RelConv.denom (Cert.RelConv.deg A b r n) := by
  rw [Read.val_main_v8_apply, Read.val_main_v6_apply, Read.val_main_v7_apply, Read.val_main_v5_apply,
    Read.val_main_cst_0_apply, Read.val_main_cst_1_apply, v4_at]
  rfl

/-- The normaliser broadcast along the feature axis. -/
theorem v9_at (A : (⟨S32x5x1024x1024, .f32⟩ : BufTy).Contents (Elt Ideal)) (b : Fin 32) (r : Fin 5) (n : Fin 1024)
    (h : Fin 256) :
    Read.val_main_v9 (F := Ideal) A (ix4 b r n h) = Cert.RelConv.denom (Cert.RelConv.deg A b r n) := by
  have e : Read.idx_main_v9 (ix4 b r n h) = ix4 b r n (0 : Fin 1) :=
    funext fun a => Fin.ext (by match a with | ⟨0, _⟩ => rfl | ⟨1, _⟩ => rfl | ⟨2, _⟩ => rfl | ⟨3, _⟩ => rfl)
  rw [Read.val_main_v9_apply, e, v8_at]

/-- The relation products, transposed to batch, relation, node, feature. -/
theorem v2_at (X : (⟨S32x1024x256, .f32⟩ : BufTy).Contents (Elt Ideal)) (Wr : (⟨S5x256x256, .f32⟩ : BufTy).Contents (Elt Ideal))
    (b : Fin 32) (r : Fin 5) (n : Fin 1024) (h : Fin 256) :
    Read.val_main_v2 (F := Ideal) X Wr (ix4 b r n h) = ∑ d : Fin 256, X (ix3 b n d) * Wr (ix3 r h d) := by
  rw [Read.val_main_v2_apply, Read.val_main_v1_apply]
  refine Finset.sum_congr rfl fun d _ => ?_
  have el : Read.lidx_main_v1 (Read.idx_main_v2 (ix4 b r n h)) d = ix3 r h d :=
    funext fun a => Fin.ext (by match a with | ⟨0, _⟩ => rfl | ⟨1, _⟩ => rfl | ⟨2, _⟩ => rfl)
  have er : Read.ridx_main_v1 (Read.idx_main_v2 (ix4 b r n h)) d = ix3 b n d :=
    funext fun a => Fin.ext (by match a with | ⟨0, _⟩ => rfl | ⟨1, _⟩ => rfl | ⟨2, _⟩ => rfl)
  rw [el, er]
  exact mul_comm _ _

/-- One relation's message. -/
theorem v10_at (X : (⟨S32x1024x256, .f32⟩ : BufTy).Contents (Elt Ideal)) (A : (⟨S32x5x1024x1024, .f32⟩ : BufTy).Contents (Elt Ideal))
    (Wr : (⟨S5x256x256, .f32⟩ : BufTy).Contents (Elt Ideal)) (b : Fin 32) (r : Fin 5) (n : Fin 1024) (h : Fin 256) :
    Read.val_main_v10 (F := Ideal) X A Wr (ix4 b r n h) = Cert.RelConv.msg X A Wr b r n h := by
  rw [Read.val_main_v10_apply, Ideal.hostDivf_def, v2_at, v9_at]
  rfl

/-- The sum of the five messages: the initial value is the float zero, which is 0. -/
theorem v11_at (X : (⟨S32x1024x256, .f32⟩ : BufTy).Contents (Elt Ideal)) (A : (⟨S32x5x1024x1024, .f32⟩ : BufTy).Contents (Elt Ideal))
    (Wr : (⟨S5x256x256, .f32⟩ : BufTy).Contents (Elt Ideal)) (b : Fin 32) (n : Fin 1024) (h : Fin 256) :
    Read.val_main_v11 (F := Ideal) X A Wr (ix3 b n h) = ∑ r : Fin 5, Cert.RelConv.msg X A Wr b r n h := by
  rw [Read.val_main_v11_apply, Read.val_main_cst_2_apply, Ideal.ofBits_def, Ideal.ofBits_zero_f32, zero_add]
  refine Finset.sum_congr rfl fun r _ => ?_
  have e : Read.idx_main_v11 (ix3 b n h) r = ix4 b r n h :=
    funext fun a => Fin.ext (by match a with | ⟨0, _⟩ => rfl | ⟨1, _⟩ => rfl | ⟨2, _⟩ => rfl | ⟨3, _⟩ => rfl)
  rw [e, v10_at]

/-- The self term. -/
theorem v0_at (X : (⟨S32x1024x256, .f32⟩ : BufTy).Contents (Elt Ideal)) (W0 : (⟨S256x256, .f32⟩ : BufTy).Contents (Elt Ideal))
    (b : Fin 32) (n : Fin 1024) (h : Fin 256) :
    Read.val_main_v0 (F := Ideal) X W0 (ix3 b n h) = Cert.RelConv.self X W0 b n h := by
  rw [Read.val_main_v0_apply]
  refine Finset.sum_congr rfl fun d _ => ?_
  have el : Read.lidx_main_v0 (ix3 b n h) d = ix3 b n d :=
    funext fun a => Fin.ext (by match a with | ⟨0, _⟩ => rfl | ⟨1, _⟩ => rfl | ⟨2, _⟩ => rfl)
  have er : Read.ridx_main_v0 (ix3 b n h) d = ix2 h d :=
    funext fun a => Fin.ext (by match a with | ⟨0, _⟩ => rfl | ⟨1, _⟩ => rfl)
  rw [el, er]

/-- The reference's result is the specification's array: at every index the sum of the messages plus the self
    term, which is the self term plus the sum of the messages. -/
theorem ref_is_G (X : (⟨S32x1024x256, .f32⟩ : BufTy).Contents (Elt Ideal)) (A : (⟨S32x5x1024x1024, .f32⟩ : BufTy).Contents (Elt Ideal))
    (W0 : (⟨S256x256, .f32⟩ : BufTy).Contents (Elt Ideal)) (Wr : (⟨S5x256x256, .f32⟩ : BufTy).Contents (Elt Ideal)) :
    Cert.ReferenceIdeal.Read.val_main_v12 (F := Ideal) X A W0 Wr = Cert.RelConv.G X A W0 Wr := by
  funext i
  obtain ⟨b, n, h, rfl⟩ : ∃ (b : Fin 32) (n : Fin 1024) (h : Fin 256), i = ix3 b n h := ⟨i 0, i 1, i 2, eq_ix3 i⟩
  rw [Read.val_main_v12_apply, Ideal.addf_def, v11_at, v0_at, Cert.RelConv.G_ix3]
  exact add_comm _ _

end Cert.ReferenceIdeal.RefValue
end
-- ==== Proof.lean ====
/-
  The certificate of a relational graph-convolution kernel against its jnp reference.

  Both programs compute, for a batch entry b, a node n and an output feature h,

      ⟨X[b, n, ·], W0[h, ·]⟩ + ∑ r, ⟨X[b, n, ·], Wr[r, h, ·]⟩ / c (b, r, n),

  c (b, r, n) the row sum of relation r's adjacency at node n, replaced by 1 where it is 0 (Spec.lean).
  The kernel walks a (batch, relation) grid, relation innermost, keeping the partial sum in an
  accumulator that it seeds with the self term at relation 0 and copies out at relation 4; the
  reference forms all five messages at once, sums them and adds the self term last.  Over the extended
  reals the two are the same function: only the order of the additions and of each product's factors
  differs, and a change of float format is the identity.  No finiteness of the inputs is used.

  The three frames are the generated ones (the reference's is its generated run with the result
  dropped); the idealization rewrote nothing, so `preserves` is trivial; `algebraic` sets the kernel's
  run (Fold.lean) beside the reference's (RefValue.lean), both ending at the specification's array.
-/
import proofs.«141400_j13134009991572_1_alg».proof.Defs
import proofs.«141400_j13134009991572_1_alg».proof.Proof.Gen.Kernel
import proofs.«141400_j13134009991572_1_alg».proof.Proof.Gen.Kernel.Frame
import proofs.«141400_j13134009991572_1_alg».proof.Proof.Gen.KernelIdeal
import proofs.«141400_j13134009991572_1_alg».proof.Proof.Gen.KernelIdeal.Frame
import proofs.«141400_j13134009991572_1_alg».proof.Proof.Gen.KernelIdeal.Value
import proofs.«141400_j13134009991572_1_alg».proof.Proof.Gen.ReferenceIdeal
import proofs.«141400_j13134009991572_1_alg».proof.Proof.Gen.ReferenceIdeal.Run
import proofs.«141400_j13134009991572_1_alg».proof.Proof.Gen.ReferenceIdeal.Read
import proofs.«141400_j13134009991572_1_alg».proof.Proof.Gen.Pre_finite_inputs
import proofs.«141400_j13134009991572_1_alg».proof.Proof.Fold
import proofs.«141400_j13134009991572_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact instance the kernel's result array ends at the convolution of its arguments, and the
    reference's at its composed term of arguments that agree with them, which is the same convolution. -/
theorem algebraic : Cert.algebraic_KernelIdeal_ReferenceIdeal := by
  intro m ρ m' ρ' _ hagree
  refine ⟨fun c => Cert.RelConv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_is_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
